-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x256 : Shape := ⟨3, ![128, 512, 256]⟩
abbrev S128x256 : Shape := ⟨2, ![128, 256]⟩
abbrev S1024x50 : Shape := ⟨2, ![1024, 50]⟩
abbrev S50 : Shape := ⟨1, ![50]⟩
abbrev S50x1 : Shape := ⟨2, ![50, 1]⟩
abbrev S1 : Shape := ⟨1, ![1]⟩
abbrev S_ : Shape := ⟨0, ![]⟩

class Facts : Prop where
  bcast_S_S128x512x256 : S_.BroadcastsInDim S128x512x256 (![] : Fin 0 → Fin S128x512x256.rank)
  reducesTo_S128x512x256_S_d0_1_2 : S128x512x256.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S1024x50 : S_.BroadcastsInDim S1024x50 (![] : Fin 0 → Fin S1024x50.rank)
  reducesTo_S1024x50_S_d0_1 : S1024x50.ReducesTo [0, 1] S_
  bcast_S_S50 : S_.BroadcastsInDim S50 (![] : Fin 0 → Fin S50.rank)
  reducesTo_S50_S_d0 : S50.ReducesTo [0] S_
  bcast_S_S50x1 : S_.BroadcastsInDim S50x1 (![] : Fin 0 → Fin S50x1.rank)
  reducesTo_S50x1_S_d0_1 : S50x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S50 .f32) (main_arg5 : FVec F S50x1 .f32) (main_arg6 : FVec F S1 .f32) (main_v13 : IVec S_ 1) (main_v16 : IVec S1024x50 1) : IVec S_ 1 :=
  let main_c_5 : IVec S_ 1 := constantI S_ 1 1#1
  let main_v17 : IVec S_ 1 := (fun x v => Host.reduce IntOp.andi x v reducesTo_S1024x50_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x1 .f32 := Host.absf main_arg5
  let main_cst_8 : FVec F S_ .f32 := constant S_ .f32 0x7F800000#32
  let main_v25 : FVec F S50x1 .f32 := broadcastInDim S50x1 ![] bcast_S_S50x1 main_cst_8
  let main_v26 : IVec S50x1 1 := cmpf .olt main_v24 main_v25
  let main_c_9 : IVec S_ 1 := constantI S_ 1 1#1
  let main_v27 : IVec S_ 1 := (fun x v => Host.reduce IntOp.andi x v reducesTo_S50x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S128x512x256 .f32) (main_arg1 : FVec F S128x256 .f32) (main_arg2 : FVec F S128x256 .f32) (main_arg3 : FVec F S1024x50 .f32) (main_arg4 : FVec F S50 .f32) (main_arg5 : FVec F S50x1 .f32) (main_arg6 : FVec F S1 .f32) : IVec S_ 1 :=
  let main_v0 : FVec F S128x512x256 .f32 := Host.absf main_arg0
  let main_cst : FVec F S_ .f32 := constant S_ .f32 0x7F800000#32
  let main_v1 : FVec F S128x512x256 .f32 := broadcastInDim S128x512x256 ![] bcast_S_S128x512x256 main_cst
  let main_v2 : IVec S128x512x256 1 := cmpf .olt main_v0 main_v1
  let main_c : IVec S_ 1 := constantI S_ 1 1#1
  let main_v3 : IVec S_ 1 := (fun x v => Host.reduce IntOp.andi x v reducesTo_S128x512x256_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S1024x50 .f32 := Host.absf main_arg3
  let main_cst_4 : FVec F S_ .f32 := constant S_ .f32 0x7F800000#32
  let main_v15 : FVec F S1024x50 .f32 := broadcastInDim S1024x50 ![] bcast_S_S1024x50 main_cst_4
  let main_v16 : IVec S1024x50 1 := cmpf .olt main_v14 main_v15
  fn_part1 (F := F) main_arg4 main_arg5 main_arg6 main_v13 main_v16
-- ==== Kernel.lean ====
abbrev S128x512x256 : Shape := ⟨3, ![128, 512, 256]⟩
abbrev S128x256 : Shape := ⟨2, ![128, 256]⟩
abbrev S1024x50 : Shape := ⟨2, ![1024, 50]⟩
abbrev S50 : Shape := ⟨1, ![50]⟩
abbrev S50x1 : Shape := ⟨2, ![50, 1]⟩
abbrev S1 : Shape := ⟨1, ![1]⟩
abbrev S256x50 : Shape := ⟨2, ![256, 50]⟩
abbrev S1x50 : Shape := ⟨2, ![1, 50]⟩
abbrev S128x512 : Shape := ⟨2, ![128, 512]⟩
abbrev S16x512x256 : Shape := ⟨3, ![16, 512, 256]⟩
abbrev S16x256 : Shape := ⟨2, ![16, 256]⟩
abbrev S16x512 : Shape := ⟨2, ![16, 512]⟩
abbrev S16x1x256 : Shape := ⟨3, ![16, 1, 256]⟩
abbrev S1x1x50 : Shape := ⟨3, ![1, 1, 50]⟩
abbrev S1x1 : Shape := ⟨2, ![1, 1]⟩
abbrev S16x128x256 : Shape := ⟨3, ![16, 128, 256]⟩
abbrev S2048x256 : Shape := ⟨2, ![2048, 256]⟩
abbrev S2048x50 : Shape := ⟨2, ![2048, 50]⟩
abbrev S16x128x50 : Shape := ⟨3, ![16, 128, 50]⟩
abbrev S16x128 : Shape := ⟨2, ![16, 128]⟩
abbrev S128x512x1 : Shape := ⟨3, ![128, 512, 1]⟩
abbrev S_ : Shape := ⟨0, ![]⟩

abbrev nBuf : Space → Nat
  | .hbm => 26
  | .vmem => 15
  | .smem => 0
  | _ => 0

abbrev bufTy : (tb : Table) → Fin (tcTables nBuf tb) → BufTy
  | .hbm, ⟨0, _⟩ => ⟨S128x512x256, .f32⟩
  | .hbm, ⟨1, _⟩ => ⟨S128x256, .f32⟩
  | .hbm, ⟨2, _⟩ => ⟨S128x256, .f32⟩
  | .hbm, ⟨3, _⟩ => ⟨S1024x50, .f32⟩
  | .hbm, ⟨4, _⟩ => ⟨S50, .f32⟩
  | .hbm, ⟨5, _⟩ => ⟨S50x1, .f32⟩
  | .hbm, ⟨6, _⟩ => ⟨S1, .f32⟩
  | .hbm, ⟨7, _⟩ => ⟨S256x50, .f32⟩
  | .hbm, ⟨8, _⟩ => ⟨S256x50, .f32⟩
  | .hbm, ⟨9, _⟩ => ⟨S256x50, .f32⟩
  | .hbm, ⟨10, _⟩ => ⟨S256x50, .f32⟩
  | .hbm, ⟨11, _⟩ => ⟨S1x50, .f32⟩
  | .hbm, ⟨12, _⟩ => ⟨S128x512, .f32⟩
  | .hbm, ⟨13, _⟩ => ⟨S128x512x1, .f32⟩
  | .hbm, ⟨14, _⟩ => ⟨S_, .f32⟩
  | .hbm, ⟨15, _⟩ => ⟨S128x512, .f32⟩
  | .hbm, ⟨16, _⟩ => ⟨S_, .f32⟩
  | .hbm, ⟨17, _⟩ => ⟨S128x512, .f32⟩
  | .hbm, ⟨18, _⟩ => ⟨S128x512, .f32⟩
  | .hbm, ⟨19, _⟩ => ⟨S128x512x1, .f32⟩
  | .hbm, ⟨20, _⟩ => ⟨S128x512x1, .f32⟩
  | .hbm, ⟨21, _⟩ => ⟨S128x512x1, .f32⟩
  | .hbm, ⟨22, _⟩ => ⟨S_, .f32⟩
  | .hbm, ⟨23, _⟩ => ⟨S128x512, .f32⟩
  | .hbm, ⟨24, _⟩ => ⟨S128x512x1, .f32⟩
  | .hbm, ⟨25, _⟩ => ⟨S128x512x1, .f32⟩
  | .local _ .vmem, ⟨0, _⟩ => ⟨S16x512x256, .f32⟩
  | .local _ .vmem, ⟨1, _⟩ => ⟨S16x512x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S256x50, .f32⟩
  | .local _ .vmem, ⟨7, _⟩ => ⟨S256x50, .f32⟩
  | .local _ .vmem, ⟨8, _⟩ => ⟨S256x50, .f32⟩
  | .local _ .vmem, ⟨9, _⟩ => ⟨S256x50, .f32⟩
  | .local _ .vmem, ⟨10, _⟩ => ⟨S50, .f32⟩
  | .local _ .vmem, ⟨11, _⟩ => ⟨S1x50, .f32⟩
  | .local _ .vmem, ⟨12, _⟩ => ⟨S1, .f32⟩
  | .local _ .vmem, ⟨13, _⟩ => ⟨S16x512, .f32⟩
  | .local _ .vmem, ⟨14, _⟩ => ⟨S16x512, .f32⟩
  | _, _ => ⟨S128x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v23 : BitVec 32 := Scalar.addi c0_i32 c4_i32
  let c1_i32 : BitVec 32 := 1#32
  ⟨c0_i32, v23, c1_i32⟩
def k0_mult1 (k0_t1 : Fin k0_t1_loop.trips) : BitVec 32 :=
  let c0_i32_17 : BitVec 32 := 0#32
  let c0_i32 : BitVec 32 := 0#32
  let c1_i32 : BitVec 32 := 1#32
  let arg12 : BitVec 32 := Scf.iv c0_i32 c1_i32 k0_t1
  let c1_i32_16 : BitVec 32 := 1#32
  let v24 : BitVec 32 := Scalar.muli arg12 c1_i32_16
  let v25 : BitVec 32 := Scalar.addi c0_i32_17 v24
  let c128_i32 : BitVec 32 := 128#32
  let v26 : BitVec 32 := Scalar.muli v25 c128_i32
  v26
def k0_off1 (k0_t1 : Fin k0_t1_loop.trips) : Fin 3 → Nat :=
  let c0_18 : Index := 0#32
  let c0_i32_17 : BitVec 32 := 0#32
  let c0_i32 : BitVec 32 := 0#32
  let c1_i32 : BitVec 32 := 1#32
  let arg12 : BitVec 32 := Scf.iv c0_i32 c1_i32 k0_t1
  let c1_i32_16 : BitVec 32 := 1#32
  let v24 : BitVec 32 := Scalar.muli arg12 c1_i32_16
  let v25 : BitVec 32 := Scalar.addi c0_i32_17 v24
  let c128_i32 : BitVec 32 := 128#32
  let v26 : BitVec 32 := Scalar.muli v25 c128_i32
  let v27 : BitVec 32 := v26
  let v28 : Index := Scalar.indexCast v27
  let c0_19 : Index := 0#32
  ![0, v28.toNat, 0]
def k0_off2 (k0_t1 : Fin k0_t1_loop.trips) : Fin 2 → Nat :=
  let c0_24 : Index := 0#32
  let c0_i32_17 : BitVec 32 := 0#32
  let c0_i32 : BitVec 32 := 0#32
  let c1_i32 : BitVec 32 := 1#32
  let arg12 : BitVec 32 := Scf.iv c0_i32 c1_i32 k0_t1
  let c1_i32_16 : BitVec 32 := 1#32
  let v24 : BitVec 32 := Scalar.muli arg12 c1_i32_16
  let v25 : BitVec 32 := Scalar.addi c0_i32_17 v24
  let c128_i32 : BitVec 32 := 128#32
  let v26 : BitVec 32 := Scalar.muli v25 c128_i32
  let v27 : BitVec 32 := v26
  let v64 : Index := Scalar.indexCast v27
  ![0, v64.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S1024x50_S256x50_0_0 : S1024x50.Slices ![0, 0] S256x50
  slices_S1024x50_S256x50_256_0 : S1024x50.Slices ![256, 0] S256x50
  slices_S1024x50_S256x50_512_0 : S1024x50.Slices ![512, 0] S256x50
  slices_S1024x50_S256x50_768_0 : S1024x50.Slices ![768, 0] S256x50
  shapeCasts_S50x1_S1x50 : S50x1.ShapeCasts S1x50
  inb_S16x256_S16x256_0_0 : ∀ a, (![0, 0] : Fin 2 → Nat) a + S16x256.size a ≤ S16x256.size a
  h_S16x256 : 0 < S16x256.numel
  shapeCasts_S16x256_S16x1x256 : S16x256.ShapeCasts S16x1x256
  inb_S256x50_S256x50_0_0 : ∀ a, (![0, 0] : Fin 2 → Nat) a + S256x50.size a ≤ S256x50.size a
  h_S256x50 : 0 < S256x50.numel
  shapeCasts_S256x50_S256x50 : S256x50.ShapeCasts S256x50
  bitsLt_bf16_f32 : FTy.bits .bf16 < FTy.bits .f32
  inb_S50_S50_0 : ∀ a, (![0] : Fin 1 → Nat) a + S50.size a ≤ S50.size a
  h_S50 : 0 < S50.numel
  shapeCasts_S50_S1x1x50 : S50.ShapeCasts S1x1x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  shapeCasts_S1x50_S1x1x50 : S1x50.ShapeCasts S1x1x50
  inb_S1_S1_0 : ∀ a, (![0] : Fin 1 → Nat) a + S1.size a ≤ S1.size a
  h_S1 : 0 < S1.numel
  shapeCasts_S1_S1x1 : S1.ShapeCasts S1x1
  h_S16x128x256 : 0 < S16x128x256.numel
  broadcasts_S16x1x256_S16x128x256 : S16x1x256.Broadcasts S16x128x256
  shapeCasts_S16x128x256_S2048x256 : S16x128x256.ShapeCasts S2048x256
  shapeCasts_S2048x50_S16x128x50 : S2048x50.ShapeCasts S16x128x50
  broadcasts_S1x1x50_S16x128x50 : S1x1x50.Broadcasts S16x128x50
  reduces_S16x128x50_S16x128 : S16x128x50.Reduces [2] S16x128
  broadcasts_S1x1_S16x128 : S1x1.Broadcasts S16x128
  h_S16x128 : 0 < S16x128.numel
  bcast_S128x512_S128x512x1_0_1 : S128x512.BroadcastsInDim S128x512x1 (![0, 1] : Fin 2 → Fin S128x512x1.rank)
  reducesTo_S128x512x1_S128x512_d2 : S128x512x1.ReducesTo [2] S128x512
  h_S_ : 0 < S_.numel
  bcast_S_S128x512 : S_.BroadcastsInDim S128x512 (![] : Fin 0 → Fin S128x512.rank)
  dot_S2048x256_S256x50_S2048x50_1_0_0_1_n_n_wf : DotDims.WF S2048x256 S256x50 S2048x50 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S16x128x256.size a ≤ S16x512x256.size a
  k0_off2_inb : ∀ k0_t1 : Fin k0_t1_loop.trips, ∀ a, (k0_off2 k0_t1) a + S16x128.size a ≤ S16x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x256.size a ≤ S128x512x256.size a
  hwx0_0 : ∀ i : grid0.Coords, EltTy.bits .f32 = 32 ∨ (Rect.block (s := S128x512x256) S16x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S128x256.size a
  hwx0_1 : ∀ i : grid0.Coords, EltTy.bits .f32 = 32 ∨ (Rect.block (s := S128x256) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S128x256.size a
  hwx0_2 : ∀ i : grid0.Coords, EltTy.bits .f32 = 32 ∨ (Rect.block (s := S128x256) S16x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x50.size a ≤ S256x50.size a
  hwx0_3 : ∀ i : grid0.Coords, EltTy.bits .f32 = 32 ∨ (Rect.block (s := S256x50) S256x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x50.size a ≤ S256x50.size a
  hwx0_4 : ∀ i : grid0.Coords, EltTy.bits .f32 = 32 ∨ (Rect.block (s := S256x50) S256x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x50.size a ≤ S256x50.size a
  hwx0_5 : ∀ i : grid0.Coords, EltTy.bits .f32 = 32 ∨ (Rect.block (s := S256x50) S256x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x50.size a ≤ S256x50.size a
  hwx0_6 : ∀ i : grid0.Coords, EltTy.bits .f32 = 32 ∨ (Rect.block (s := S256x50) S256x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50.size a ≤ S50.size a
  hwx0_7 : ∀ i : grid0.Coords, EltTy.bits .f32 = 32 ∨ (Rect.block (s := S50) S50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x50.size a ≤ S1x50.size a
  hwx0_8 : ∀ i : grid0.Coords, EltTy.bits .f32 = 32 ∨ (Rect.block (s := S1x50) S1x50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x512.size a ≤ S128x512.size a
  hwx0_10 : ∀ i : grid0.Coords, EltTy.bits .f32 = 32 ∨ (Rect.block (s := S128x512) S16x512.size (cc0_transform_10 i) (hinb0_10 i)).WholeWords (EltTy.packing .f32)

variable [Facts₀]

def dot_S2048x256_S256x50_S2048x50_1_0_0_1_n_n : DotDims S2048x256 S256x50 S2048x50 where
  lhsContracting := [1]
  rhsContracting := [0]
  lhsNonContracting := [0]
  rhsNonContracting := [1]
  lhsBatch := []
  rhsBatch := []
  wf := dot_S2048x256_S256x50_S2048x50_1_0_0_1_n_n_wf

abbrev win0_0 : Pipeline.Window sig grid0 :=
  Pipeline.Window.ofSpec (Memref.whole main_arg0) S16x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S16x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S128x512x256 : Shape := ⟨3, ![128, 512, 256]⟩
abbrev S128x256 : Shape := ⟨2, ![128, 256]⟩
abbrev S1024x50 : Shape := ⟨2, ![1024, 50]⟩
abbrev S50 : Shape := ⟨1, ![50]⟩
abbrev S50x1 : Shape := ⟨2, ![50, 1]⟩
abbrev S1 : Shape := ⟨1, ![1]⟩
abbrev S128x1x256 : Shape := ⟨3, ![128, 1, 256]⟩
abbrev S128x512x1024 : Shape := ⟨3, ![128, 512, 1024]⟩
abbrev S128x512x50 : Shape := ⟨3, ![128, 512, 50]⟩
abbrev S1x1x50 : Shape := ⟨3, ![1, 1, 50]⟩
abbrev S128x512x1 : Shape := ⟨3, ![128, 512, 1]⟩
abbrev S1x1x1 : Shape := ⟨3, ![1, 1, 1]⟩
abbrev S_ : Shape := ⟨0, ![]⟩
abbrev S128x512 : Shape := ⟨2, ![128, 512]⟩

abbrev nBuf : Space → Nat
  | .hbm => 41
  | .vmem => 0
  | .smem => 0
  | _ => 0

abbrev bufTy : (tb : Table) → Fin (tcTables nBuf tb) → BufTy
  | .hbm, ⟨0, _⟩ => ⟨S128x512x256, .f32⟩
  | .hbm, ⟨1, _⟩ => ⟨S128x256, .f32⟩
  | .hbm, ⟨2, _⟩ => ⟨S128x256, .f32⟩
  | .hbm, ⟨3, _⟩ => ⟨S1024x50, .f32⟩
  | .hbm, ⟨4, _⟩ => ⟨S50, .f32⟩
  | .hbm, ⟨5, _⟩ => ⟨S50x1, .f32⟩
  | .hbm, ⟨6, _⟩ => ⟨S1, .f32⟩
  | .hbm, ⟨7, _⟩ => ⟨S128x1x256, .f32⟩
  | .hbm, ⟨8, _⟩ => ⟨S128x1x256, .f32⟩
  | .hbm, ⟨9, _⟩ => ⟨S128x512x256, .f32⟩
  | .hbm, ⟨10, _⟩ => ⟨S128x512x256, .f32⟩
  | .hbm, ⟨11, _⟩ => ⟨S128x512x256, .f32⟩
  | .hbm, ⟨12, _⟩ => ⟨S128x512x256, .f32⟩
  | .hbm, ⟨13, _⟩ => ⟨S128x512x256, .f32⟩
  | .hbm, ⟨14, _⟩ => ⟨S128x512x256, .f32⟩
  | .hbm, ⟨15, _⟩ => ⟨S128x512x256, .f32⟩
  | .hbm, ⟨16, _⟩ => ⟨S128x512x256, .f32⟩
  | .hbm, ⟨17, _⟩ => ⟨S128x512x256, .f32⟩
  | .hbm, ⟨18, _⟩ => ⟨S128x512x256, .f32⟩
  | .hbm, ⟨19, _⟩ => ⟨S128x512x1024, .f32⟩
  | .hbm, ⟨20, _⟩ => ⟨S128x512x50, .f32⟩
  | .hbm, ⟨21, _⟩ => ⟨S1x1x50, .f32⟩
  | .hbm, ⟨22, _⟩ => ⟨S128x512x50, .f32⟩
  | .hbm, ⟨23, _⟩ => ⟨S128x512x50, .f32⟩
  | .hbm, ⟨24, _⟩ => ⟨S128x512x50, .f32⟩
  | .hbm, ⟨25, _⟩ => ⟨S128x512x1, .f32⟩
  | .hbm, ⟨26, _⟩ => ⟨S1x1x1, .f32⟩
  | .hbm, ⟨27, _⟩ => ⟨S128x512x1, .f32⟩
  | .hbm, ⟨28, _⟩ => ⟨S128x512x1, .f32⟩
  | .hbm, ⟨29, _⟩ => ⟨S_, .f32⟩
  | .hbm, ⟨30, _⟩ => ⟨S128x512, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S128x512x1, .f32⟩
  | .hbm, ⟨35, _⟩ => ⟨S128x512x1, .f32⟩
  | .hbm, ⟨36, _⟩ => ⟨S128x512x1, .f32⟩
  | .hbm, ⟨37, _⟩ => ⟨S_, .f32⟩
  | .hbm, ⟨38, _⟩ => ⟨S128x512, .f32⟩
  | .hbm, ⟨39, _⟩ => ⟨S128x512x1, .f32⟩
  | .hbm, ⟨40, _⟩ => ⟨S128x512x1, .f32⟩
  | _, _ => ⟨S128x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S128x256_S128x1x256_0_2 : S128x256.BroadcastsInDim S128x1x256 (![0, 2] : Fin 2 → Fin S128x1x256.rank)
  bcast_S128x1x256_S128x512x256_0_1_2 : S128x1x256.BroadcastsInDim S128x512x256 (![0, 1, 2] : Fin 3 → Fin S128x512x256.rank)
  concatenates_S128x512x256_S128x512x256_S128x512x256_S128x512x256_S128x512x1024_d2 : Shape.Concatenates [S128x512x256, S128x512x256, S128x512x256, S128x512x256] S128x512x1024 2
  bcast_S50_S1x1x50_2 : S50.BroadcastsInDim S1x1x50 (![2] : Fin 1 → Fin S1x1x50.rank)
  bcast_S1x1x50_S128x512x50_0_1_2 : S1x1x50.BroadcastsInDim S128x512x50 (![0, 1, 2] : Fin 3 → Fin S128x512x50.rank)
  bcast_S1_S1x1x1_2 : S1.BroadcastsInDim S1x1x1 (![2] : Fin 1 → Fin S1x1x1.rank)
  bcast_S1x1x1_S128x512x1_0_1_2 : S1x1x1.BroadcastsInDim S128x512x1 (![0, 1, 2] : Fin 3 → Fin S128x512x1.rank)
  reducesTo_S128x512x1_S128x512_d2 : S128x512x1.ReducesTo [2] S128x512
  h_S_ : 0 < S_.numel
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  dot_S128x512x1024_S1024x50_S128x512x50_2_0_01_1_n_n_wf : DotDims.WF S128x512x1024 S1024x50 S128x512x50 [2] [0] [0, 1] [1] [] []
  dot_S128x512x50_S50x1_S128x512x1_2_0_01_1_n_n_wf : DotDims.WF S128x512x50 S50x1 S128x512x1 [2] [0] [0, 1] [1] [] []

variable [Facts₀]

def dot_S128x512x1024_S1024x50_S128x512x50_2_0_01_1_n_n : DotDims S128x512x1024 S1024x50 S128x512x50 where
  lhsContracting := [2]
  rhsContracting := [0]
  lhsNonContracting := [0, 1]
  rhsNonContracting := [1]
  lhsBatch := []
  rhsBatch := []
  wf := dot_S128x512x1024_S1024x50_S128x512x50_2_0_01_1_n_n_wf
def dot_S128x512x50_S50x1_S128x512x1_2_0_01_1_n_n : DotDims S128x512x50 S50x1 S128x512x1 where
  lhsContracting := [2]
  rhsContracting := [0]
  lhsNonContracting := [0, 1]
  rhsNonContracting := [1]
  lhsBatch := []
  rhsBatch := []
  wf := dot_S128x512x50_S50x1_S128x512x1_2_0_01_1_n_n_wf

class Facts : Prop extends Facts₀ where

variable [Facts]
-- ==== Proof.Finite.lean ====
/-
  Extended reals that are real numbers.  An extended real is FINITE when it is the image of a real
  number, i.e. neither of the two infinities.  Sums and products of finite values are finite, the
  hyperbolic tangent of ANY extended real is finite (it takes values in [-1, 1], the two limits
  included), and a value whose absolute value lies strictly below +∞ is finite.

  The softmax over an axis of extent one, at a finite logit l, is
      exp (l - max (-∞) (max (-∞) l)) / (0 + exp (l - max (-∞) (max (-∞) l))) = e⁰ / e⁰ = 1 :
  the maximum of the single logit is the logit, a finite number minus itself is zero (this is where
  finiteness is needed: ∞ - ∞ is not zero on the extended reals), and one over one is one.
-/
import Idealize.ShloMosaic.PureOps.Ideal
import Idealize.ShloMosaic.PureOps.Ideal.Laws

noncomputable section

namespace Cert.Fin1

open Idealize.ShloMosaic

/-- `x` is a real number: neither `+∞` nor `-∞`. -/
def IsFin (x : EReal) : Prop := ∃ r : ℝ, x = (r : EReal)

theorem IsFin.coe (r : ℝ) : IsFin (r : EReal) := ⟨r, rfl⟩

theorem IsFin.zero : IsFin 0 := ⟨0, rfl⟩

theorem IsFin.add {x y : EReal} (hx : IsFin x) (hy : IsFin y) : IsFin (x + y) := by
  obtain ⟨a, rfl⟩ := hx
  obtain ⟨b, rfl⟩ := hy
  exact ⟨a + b, (EReal.coe_add a b).symm⟩

theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- A finite sum of finite values is finite. -/
theorem IsFin.sum {ι : Type} (s : Finset ι) (f : ι → EReal) (h : ∀ i ∈ s, IsFin (f i)) :
    IsFin (∑ i ∈ s, f i) := by
  classical
  induction s using Finset.induction_on with
  | empty => rw [Finset.sum_empty]; exact IsFin.zero
  | insert a s ha ih =>
    rw [Finset.sum_insert ha]
    exact (h a (Finset.mem_insert_self a s)).add (ih fun i hi => h i (Finset.mem_insert_of_mem hi))

/-- The hyperbolic tangent of an extended real is a real number: `-1` at `-∞`, `1` at `+∞`. -/
theorem isFin_tanh (x : EReal) : IsFin (Ideal.tanh x) := by
  induction x using EReal.rec with
  | bot => exact ⟨-1, by rw [Ideal.tanh_bot]; rfl⟩
  | top => exact ⟨1, by rw [Ideal.tanh_top]; rfl⟩
  | coe r => exact ⟨Real.tanh r, Ideal.tanh_coe r⟩

/-- An extended real whose absolute value `max x (-x)` lies strictly below `+∞` is a real number. -/
theorem isFin_of_abs_lt_top {x : EReal} (h : max x (-x) < ⊤) : IsFin x := by
  induction x using EReal.rec with
  | bot => exact absurd h (by simp)
  | top => exact absurd h (by simp)
  | coe r => exact ⟨r, rfl⟩

/-- A real number minus itself is zero on the extended reals. -/
theorem IsFin.sub_self {x : EReal} (hx : IsFin x) : x - x = 0 := by
  obtain ⟨a, rfl⟩ := hx
  rw [← EReal.coe_sub, _root_.sub_self, EReal.coe_zero]

/-- One over one is one. -/
theorem div_one_one : Ideal.div 1 1 = 1 := by
  have h := Ideal.div_coe (y := 1) one_ne_zero (1 : EReal)
  rw [EReal.coe_one] at h
  rw [h, div_one, EReal.coe_one, mul_one]

/-- The softmax of a single finite logit: `e^(l - l) / (0 + e^(l - l)) = 1`. -/
theorem softmax_single {l : EReal} (hl : IsFin l) :
    Ideal.div (Ideal.exp (l - max ⊥ (max l ⊥))) (0 + Ideal.exp (l - max ⊥ (max l ⊥))) = 1 := by
  have e0 : Ideal.exp 0 = 1 := by
    rw [← EReal.coe_zero, Ideal.exp_coe, Real.exp_zero, EReal.coe_one]
  rw [max_bot_right, max_bot_left, hl.sub_self, e0, zero_add, div_one_one]

end Cert.Fin1

end
-- ==== Proof.LibCanonForall.lean ====
/-
  A property of every stored value is a property of what the stores leave.

  A buffer filled by a list of stores (each a rectangle and a payload) holds, at an index some store covers, the
  payload of the most recent store covering it.  So if EVERY payload of EVERY store in the list has a property `P`
  at every one of its positions, the buffer's contents have `P` at every covered index — whatever the rectangles
  are, in whatever order the stores were made, and without knowing WHICH store covers the index.
-/
import Idealize.ShloMosaic.Lib.Pipeline.FrameBody

noncomputable section

namespace Idealize.ShloMosaic.View

variable {Val : EltTy → Type} {S : Shape} {e : EltTy}

/-- If every payload of every store has `P` everywhere, the canonical contents of the stores have `P` at every index
    that some store covers. -/
theorem canon_forall_of_pieces [∀ e, Nonempty (Val e)] (P : Val e → Prop) :
    ∀ (L : List (Piece Val S e)) (_ : ∀ p ∈ L, ∀ x : p.1.shape.Idx, P (p.2 x)) (y : S.Idx)
      (_ : ∃ p ∈ L, y ∈ p.1.set), P (canon L y)
  | [], _, _, hy => by obtain ⟨p, hp, _⟩ := hy; exact absurd hp List.not_mem_nil
  | p :: L, hL, y, hy => by
    by_cases hm : y ∈ p.1.set
    · obtain ⟨x, rfl⟩ := p.1.exists_idx_of_mem hm
      rw [show p.1.idx x = p.1.emb x from rfl, canon_cons_emb]
      exact hL p List.mem_cons_self x
    · rw [canon_cons_of_not_mem _ _ hm]
      refine canon_forall_of_pieces P L (fun q hq => hL q (List.mem_cons_of_mem _ hq)) y ?_
      obtain ⟨q, hq, hyq⟩ := hy
      rcases List.mem_cons.mp hq with rfl | hq'
      · exact absurd hyq hm
      · exact ⟨q, hq', hyq⟩

/-- The same for the contents read back through a view, over junk: stores whose payloads all have `P` leave a buffer
    with `P` at every covered index. -/
theorem read_writes_junk_forall_of_pieces [∀ e, Nonempty (Val e)] {sig : RefSig} {κ : Kind} {sp : Space}
    (v : View sig κ sp S e) (P : Val e → Prop) (L : List (Piece Val S e))
    (hL : ∀ p ∈ L, ∀ x : p.1.shape.Idx, P (p.2 x)) (y : S.Idx) (hy : ∃ p ∈ L, y ∈ p.1.set) :
    P (v.read Val (v.writes Val v.junk L) y) := by
  rw [read_writes_junk_apply_eq_canon]
  exact canon_forall_of_pieces P L hL y hy

end Idealize.ShloMosaic.View

end
-- ==== Proof.KernelPieces.lean ====
/-
  Every value the kernel body stores into its output block is a real number.

  The body runs four trips of one loop; trip k stores, into columns [128 k, 128 k + 128) of the [16, 512] output
  block, the chunk
      logits = (sum over h of tanh (pre-activation) * w2[h]) + b2
  whatever the pre-activation is: it is built from the facts, question and memory blocks and the four weight
  slices, and may be anything, an infinity included.  The hyperbolic tangent of any extended real is a real number
  in [-1, 1]; so as soon as the entries of the w2 row block and of the b2 block are real numbers, each product is
  real, the sum of fifty of them is real, and so is the sum plus b2.  Nothing else about the stored values is
  needed, in particular not WHERE each trip stores: a buffer filled by stores of real numbers holds real numbers
  wherever some store covers.
-/
import proofs.«108830_j22617297781349_2_alg».proof.Proof.Gen.KernelIdeal.Frame
import proofs.«108830_j22617297781349_2_alg».proof.Proof.Finite
import proofs.«108830_j22617297781349_2_alg».proof.Proof.LibCanonForall
import Idealize.ShloMosaic.PureOps.Ideal.Laws

set_option maxRecDepth 16384

noncomputable section

namespace Cert.KernelIdeal.Logits

open Idealize.ShloMosaic Idealize.ShloMosaic.TcCoe Idealize.SL.Sem
open Cert.KernelIdeal Cert.KernelIdeal.Gen Cert.Fin1

/-- A broadcast of an array of real numbers is an array of real numbers. -/
theorem isFin_broadcastTo {s t : Shape} (x : s.Idx → EReal) (h : s.Broadcasts t) (hx : ∀ k, IsFin (x k)) (j : t.Idx) :
    IsFin (broadcastTo t x h j) := by
  unfold broadcastTo
  exact hx _

/-- A reshape of an array of real numbers is an array of real numbers. -/
theorem isFin_shapeCast {s t : Shape} (x : s.Idx → EReal) (h : s.ShapeCasts t) (hx : ∀ k, IsFin (x k)) (j : t.Idx) :
    IsFin (shapeCast t x h j) := by
  unfold shapeCast
  exact hx _

/-- A sum along one axis of an array of real numbers is an array of real numbers. -/
theorem isFin_multiReduction_add {s t : Shape} {a : Fin s.rank} (src : FVec Ideal s .f32) (acc : BitVec 32)
    (h : s.Reduces [a] t) (hφ : FKind.Formats .f32) (hacc : acc = FKind.add.neutral .f32 hφ)
    (hsrc : ∀ k, IsFin (src k)) (j : t.Idx) :
    IsFin (multiReduction .add [a] t src acc h hφ hacc j) := by
  rw [Ideal.multiReduction_add_single]
  exact IsFin.sum _ _ fun k _ => hsrc _

/-- The chunk of logits a trip stores: `(Σ_h tanh(…)·w2[h]) + b2` is real at every position when the w2 row
    (`v18`) and b2 (`v21`) are. -/
theorem pay_fin (v0 : Vec Ideal S16x256 .f32) (v2 : Vec Ideal S16x256 .f32) (v4 : Vec Ideal S256x50 .f32) (v7 : Vec Ideal S256x50 .f32) (v10 : Vec Ideal S256x50 .f32) (v13 : Vec Ideal S256x50 .f32) (v16 : Vec Ideal S50 .f32) (v18 : Vec Ideal S1x50 .f32) (v21 : Vec Ideal S1 .f32) (v29 : Vec Ideal S16x128x256 .f32)
    (h18 : ∀ j, IsFin (v18 j)) (h21 : ∀ j, IsFin (v21 j)) (j : S16x128.Idx) :
    IsFin (k0_pay1 (F := Ideal) v0 v2 v4 v7 v10 v13 v16 v18 v21 v29 j) := by
  unfold k0_pay1
  dsimp only
  refine IsFin.add ?_ ?_
  · refine isFin_multiReduction_add _ _ _ _ _ (fun k => ?_) _
    refine IsFin.mul (isFin_tanh _) ?_
    refine isFin_broadcastTo _ _ (fun k' => ?_) _
    refine isFin_shapeCast _ _ (fun k'' => ?_) _
    exact isFin_shapeCast _ _ h18 _
  · refine isFin_broadcastTo _ _ (fun k' => ?_) _
    exact isFin_shapeCast _ _ h21 _

/-- The stores of one trip hold real numbers. -/
theorem trip_fin (c : Dev nD) (i : grid0.Coords) (arg1 : Memref sig .tc .vmem S16x512x256 .f32) (harg1 : arg1.IsWhole) (arg2 : Memref sig .tc .vmem S16x256 .f32) (harg2 : arg2.IsWhole) (arg3 : Memref sig .tc .vmem S16x256 .f32) (harg3 : arg3.IsWhole) (arg4 : Memref sig .tc .vmem S256x50 .f32) (harg4 : arg4.IsWhole) (arg5 : Memref sig .tc .vmem S256x50 .f32) (harg5 : arg5.IsWhole) (arg6 : Memref sig .tc .vmem S256x50 .f32) (harg6 : arg6.IsWhole) (arg7 : Memref sig .tc .vmem S256x50 .f32) (harg7 : arg7.IsWhole) (arg8 : Memref sig .tc .vmem S50 .f32) (harg8 : arg8.IsWhole) (arg9 : Memref sig .tc .vmem S1x50 .f32) (harg9 : arg9.IsWhole) (arg10 : Memref sig .tc .vmem S1 .f32) (harg10 : arg10.IsWhole) (arg11 : Memref sig .tc .vmem S16x512 .f32) (harg11 : arg11.IsWhole) (v0 : Vec Ideal S16x256 .f32) (v2 : Vec Ideal S16x256 .f32) (v4 : Vec Ideal S256x50 .f32) (v7 : Vec Ideal S256x50 .f32) (v10 : Vec Ideal S256x50 .f32) (v13 : Vec Ideal S256x50 .f32) (v16 : Vec Ideal S50 .f32) (v18 : Vec Ideal S1x50 .f32) (v21 : Vec Ideal S1 .f32)
    (X : BufTy.Contents (Elt Ideal) arg1.view.ty) (h18 : ∀ j, IsFin (v18 j)) (h21 : ∀ j, IsFin (v21 j))
    (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 arg10 harg10 arg11 harg11 v0 v2 v4 v7 v10 v13 v16 v18 v21 X k, ∀ x : p.1.shape.Idx, IsFin (p.2 x) := by
  unfold tripL_k0_t1 trip_k0_t1
  dsimp only
  intro p hp
  rw [List.mem_singleton] at hp
  subst hp
  intro x
  exact pay_fin _ _ _ _ _ _ _ _ _ _ h18 h21 x

/-- So do the stores of the trips before any `n`. -/
theorem pb_fin (c : Dev nD) (i : grid0.Coords) (arg1 : Memref sig .tc .vmem S16x512x256 .f32) (harg1 : arg1.IsWhole) (arg2 : Memref sig .tc .vmem S16x256 .f32) (harg2 : arg2.IsWhole) (arg3 : Memref sig .tc .vmem S16x256 .f32) (harg3 : arg3.IsWhole) (arg4 : Memref sig .tc .vmem S256x50 .f32) (harg4 : arg4.IsWhole) (arg5 : Memref sig .tc .vmem S256x50 .f32) (harg5 : arg5.IsWhole) (arg6 : Memref sig .tc .vmem S256x50 .f32) (harg6 : arg6.IsWhole) (arg7 : Memref sig .tc .vmem S256x50 .f32) (harg7 : arg7.IsWhole) (arg8 : Memref sig .tc .vmem S50 .f32) (harg8 : arg8.IsWhole) (arg9 : Memref sig .tc .vmem S1x50 .f32) (harg9 : arg9.IsWhole) (arg10 : Memref sig .tc .vmem S1 .f32) (harg10 : arg10.IsWhole) (arg11 : Memref sig .tc .vmem S16x512 .f32) (harg11 : arg11.IsWhole) (v0 : Vec Ideal S16x256 .f32) (v2 : Vec Ideal S16x256 .f32) (v4 : Vec Ideal S256x50 .f32) (v7 : Vec Ideal S256x50 .f32) (v10 : Vec Ideal S256x50 .f32) (v13 : Vec Ideal S256x50 .f32) (v16 : Vec Ideal S50 .f32) (v18 : Vec Ideal S1x50 .f32) (v21 : Vec Ideal S1 .f32)
    (X : BufTy.Contents (Elt Ideal) arg1.view.ty) (h18 : ∀ j, IsFin (v18 j)) (h21 : ∀ j, IsFin (v21 j)) :
    ∀ (n : ℕ), ∀ p ∈ pb_k0_t1 (F := Ideal) Variants.none c none i arg1 harg1 arg2 harg2 arg3 harg3 arg4 harg4 arg5 harg5 arg6 harg6 arg7 harg7 arg8 harg8 arg9 harg9 arg10 harg10 arg11 harg11 v0 v2 v4 v7 v10 v13 v16 v18 v21 X n, ∀ x : p.1.shape.Idx, IsFin (p.2 x)
  | 0 => by
    rw [pb_k0_t1.eq_1]
    intro p hp
    exact absurd hp List.not_mem_nil
  | n + 1 => by
    rw [pb_k0_t1.eq_2]
    unfold pb_k0_t1Step
    intro p hp
    by_cases hn : n < k0_t1_loop.trips
    · rw [dif_pos hn, List.mem_append] at hp
      rcases hp with hp | hp
      · exact trip_fin c i arg1 harg1 arg2 harg2 arg3 harg3 arg4 harg4 arg5 harg5 arg6 harg6 arg7 harg7 arg8 harg8 arg9 harg9 arg10 harg10 arg11 harg11 v0 v2 v4 v7 v10 v13 v16 v18 v21 X h18 h21 ⟨n, hn⟩ p hp
      · exact pb_fin c i arg1 harg1 arg2 harg2 arg3 harg3 arg4 harg4 arg5 harg5 arg6 harg6 arg7 harg7 arg8 harg8 arg9 harg9 arg10 harg10 arg11 harg11 v0 v2 v4 v7 v10 v13 v16 v18 v21 X h18 h21 n p hp
    · rw [dif_neg hn] at hp
      exact pb_fin c i arg1 harg1 arg2 harg2 arg3 harg3 arg4 harg4 arg5 harg5 arg6 harg6 arg7 harg7 arg8 harg8 arg9 harg9 arg10 harg10 arg11 harg11 v0 v2 v4 v7 v10 v13 v16 v18 v21 X h18 h21 n p hp

/-- What a whole staging memref holding `x` reads through its whole rectangle is `x`, entry by entry: in
    particular real numbers if `x` holds real numbers. -/
theorem readAt_fin {S : Shape} (M : Memref sig .tc .vmem S .f32) (hM : M.IsWhole) (x : Vec Ideal S .f32) (r : Rect S)
    (hx : ∀ j, IsFin (x j)) (j : r.shape.Idx) :
    IsFin (View.readAt (Elt Ideal) M.view r.toLoadRect (hM.unread x) j) := by
  rw [View.readAt_eq_ld, hM.read_unread]
  exact hx _

/-- The stores of the whole body hold real numbers, when the w2 row block `x8` and the b2 block `x9` do. -/
theorem run_fin (c : Dev nD) (i : grid0.Coords) (arg1 : Memref sig .tc .vmem S16x512x256 .f32) (harg1 : arg1.IsWhole) (arg2 : Memref sig .tc .vmem S16x256 .f32) (harg2 : arg2.IsWhole) (arg3 : Memref sig .tc .vmem S16x256 .f32) (harg3 : arg3.IsWhole) (arg4 : Memref sig .tc .vmem S256x50 .f32) (harg4 : arg4.IsWhole) (arg5 : Memref sig .tc .vmem S256x50 .f32) (harg5 : arg5.IsWhole) (arg6 : Memref sig .tc .vmem S256x50 .f32) (harg6 : arg6.IsWhole) (arg7 : Memref sig .tc .vmem S256x50 .f32) (harg7 : arg7.IsWhole) (arg8 : Memref sig .tc .vmem S50 .f32) (harg8 : arg8.IsWhole) (arg9 : Memref sig .tc .vmem S1x50 .f32) (harg9 : arg9.IsWhole) (arg10 : Memref sig .tc .vmem S1 .f32) (harg10 : arg10.IsWhole) (arg11 : Memref sig .tc .vmem S16x512 .f32) (harg11 : arg11.IsWhole) (x0 : Vec Ideal S16x512x256 .f32) (x1 : Vec Ideal S16x256 .f32) (x2 : Vec Ideal S16x256 .f32) (x3 : Vec Ideal S256x50 .f32) (x4 : Vec Ideal S256x50 .f32) (x5 : Vec Ideal S256x50 .f32) (x6 : Vec Ideal S256x50 .f32) (x7 : Vec Ideal S50 .f32) (x8 : Vec Ideal S1x50 .f32) (x9 : Vec Ideal S1 .f32)
    (h8 : ∀ j, IsFin (x8 j)) (h9 : ∀ j, IsFin (x9 j)) :
    ∀ p ∈ (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9).1, ∀ x : p.1.shape.Idx, IsFin (p.2 x) := by
  unfold kernelRun0_A
  dsimp only
  exact pb_fin c i arg1 harg1 arg2 harg2 arg3 harg3 arg4 harg4 arg5 harg5 arg6 harg6 arg7 harg7 arg8 harg8 arg9 harg9 arg10 harg10 arg11 harg11 _ _ _ _ _ _ _ _ _ _ (readAt_fin arg9 harg9 x8 (Rect.unit (s := S1x50) ![0, 0] S1x50.size Facts₀.inb_S1x50_S1x50_0_0) h8)
    (readAt_fin arg10 harg10 x9 (Rect.unit (s := S1) ![0] S1.size Facts₀.inb_S1_S1_0) h9) _

/-- The output block after the body holds real numbers everywhere (the four trips' stores cover it). -/
theorem out_fin (c : Dev nD) (i : grid0.Coords) (arg1 : Memref sig .tc .vmem S16x512x256 .f32) (harg1 : arg1.IsWhole) (arg2 : Memref sig .tc .vmem S16x256 .f32) (harg2 : arg2.IsWhole) (arg3 : Memref sig .tc .vmem S16x256 .f32) (harg3 : arg3.IsWhole) (arg4 : Memref sig .tc .vmem S256x50 .f32) (harg4 : arg4.IsWhole) (arg5 : Memref sig .tc .vmem S256x50 .f32) (harg5 : arg5.IsWhole) (arg6 : Memref sig .tc .vmem S256x50 .f32) (harg6 : arg6.IsWhole) (arg7 : Memref sig .tc .vmem S256x50 .f32) (harg7 : arg7.IsWhole) (arg8 : Memref sig .tc .vmem S50 .f32) (harg8 : arg8.IsWhole) (arg9 : Memref sig .tc .vmem S1x50 .f32) (harg9 : arg9.IsWhole) (arg10 : Memref sig .tc .vmem S1 .f32) (harg10 : arg10.IsWhole) (arg11 : Memref sig .tc .vmem S16x512 .f32) (harg11 : arg11.IsWhole) (x0 : Vec Ideal S16x512x256 .f32) (x1 : Vec Ideal S16x256 .f32) (x2 : Vec Ideal S16x256 .f32) (x3 : Vec Ideal S256x50 .f32) (x4 : Vec Ideal S256x50 .f32) (x5 : Vec Ideal S256x50 .f32) (x6 : Vec Ideal S256x50 .f32) (x7 : Vec Ideal S50 .f32) (x8 : Vec Ideal S1x50 .f32) (x9 : Vec Ideal S1 .f32)
    (h8 : ∀ j, IsFin (x8 j)) (h9 : ∀ j, IsFin (x9 j)) (y : S16x512.Idx) :
    IsFin (out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9 y) := by
  unfold out0_A_10
  exact View.read_writes_junk_forall_of_pieces VO0_10 IsFin _
    (run_fin c i arg1 harg1 arg2 harg2 arg3 harg3 arg4 harg4 arg5 harg5 arg6 harg6 arg7 harg7 arg8 harg8 arg9 harg9 arg10 harg10 arg11 harg11 x0 x1 x2 x3 x4 x5 x6 x7 x8 x9 h8 h9) y
    (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 y)

end Cert.KernelIdeal.Logits

end
-- ==== Proof.SoftmaxTail.lean ====
/-
  The softmax over a last axis of extent ONE, as both programs compute it on the host from an array of
  logits L of shape [128, 512, 1]:
      mx = max (-∞ splat) (max-reduce L over axis 2, from -∞)            [128, 512]
      e  = exp (L - mx broadcast back along axis 2)                       [128, 512, 1]
      result = e / (sum-reduce e over axis 2, from 0, broadcast back)     [128, 512, 1]
  At an index (b, t, 0) the two reductions run over the single coordinate of axis 2, so the result is
  the softmax of the one logit L (b, t, 0); when that logit is a real number it is exactly 1
  (`Fin1.softmax_single`).  Hence: if every logit is finite, the result is the constant array 1.
-/
import proofs.«108830_j22617297781349_2_alg».proof.Proof.Finite
import Idealize.ShloMosaic.PureOps.Reduce
import Idealize.ShloMosaic.Lib.Pipeline.Value
import Idealize.ShloMosaic.Lib.ValueIdx

noncomputable section

namespace Cert.Fin1

open Idealize.ShloMosaic

/-- The logits' shape, the shape of the per-row statistics, and the scalar shape. -/
abbrev T3 : Shape := ⟨3, ![128, 512, 1]⟩
abbrev T2 : Shape := ⟨2, ![128, 512]⟩
abbrev T0 : Shape := ⟨0, ![]⟩

/-- The row (b, t) of an index (b, t, 0). -/
abbrev row (i : T3.Idx) : T2.Idx := fun a => match a with
  | ⟨0, _⟩ => ⟨(i 0).val, (i 0).isLt⟩
  | ⟨1, _⟩ => ⟨(i 1).val, (i 1).isLt⟩

/-- The exponentials `exp (L - rowmax L)`, operation by operation as the host computes them: the row maximum is
    the reduction of `L` over axis 2 from `-∞`, joined once more with a `-∞` splat. -/
def expo (hr : T3.ReducesTo [2] T2) (h0 : 0 < T0.numel)
    (hb0 : T0.BroadcastsInDim T2 (![] : Fin 0 → Fin T2.rank))
    (hb : T2.BroadcastsInDim T3 (![0, 1] : Fin 2 → Fin T3.rank))
    (L : FVec Ideal T3 .f32) : FVec Ideal T3 .f32 :=
  Host.exp (subf L (broadcastInDim T3 ![0, 1] hb
    (maximumf (broadcastInDim T2 ![] hb0 (constant T0 .f32 0xFF800000#32))
      (Host.reduce FloatOps.maximumf L (constant T0 .f32 0xFF800000#32) hr h0))))

/-- The softmax along the unit axis: the exponentials over their sum along axis 2 (from 0). -/
def tail (hr : T3.ReducesTo [2] T2) (h0 : 0 < T0.numel)
    (hb0 : T0.BroadcastsInDim T2 (![] : Fin 0 → Fin T2.rank))
    (hb : T2.BroadcastsInDim T3 (![0, 1] : Fin 2 → Fin T3.rank))
    (L : FVec Ideal T3 .f32) : FVec Ideal T3 .f32 :=
  Host.divf (expo hr h0 hb0 hb L)
    (broadcastInDim T3 ![0, 1] hb
      (Host.reduceAdd (expo hr h0 hb0 hb L) (constant T0 .f32 0x00000000#32) hr h0))

/-- The bit pattern of `-∞` denotes the bottom of the extended reals. -/
theorem ofBits_neg_inf : Ideal.ofBits .f32 0xFF800000#32 = ⊥ := by
  simp [Ideal.ofBits, Ideal.ieee]

/-- A fold of a commutative, associative operation over an index type of ONE element is one application. -/
theorem fold_univ_one {n : ℕ} (hn : n = 1) (op : EReal → EReal → EReal) [Std.Commutative op] [Std.Associative op]
    (b : EReal) (f : Fin n → EReal) :
    (Finset.univ : Finset (Fin n)).fold op b f = op (f ⟨0, by omega⟩) b := by
  subst hn
  rw [Finset.univ_unique, Finset.fold_singleton]
  rfl

/-- A sum over an index type of ONE element is its one term. -/
theorem sum_univ_one {n : ℕ} (hn : n = 1) (f : Fin n → EReal) : ∑ k : Fin n, f k = f ⟨0, by omega⟩ := by
  subst hn
  exact Fin.sum_univ_one f

/-- The one index of axis 2 above row `row i` is `i` itself. -/
theorem lift_row (h : T3.Reduces [2] T2) (i : T3.Idx) (k : Fin (T3.size 2)) : h.lift (row i) k = i := by
  funext a
  refine Fin.ext ?_
  match a with
  | ⟨0, _⟩ => rfl
  | ⟨1, _⟩ => rfl
  | ⟨2, _⟩ =>
    have h1 : (i 2).val < 1 := (i 2).isLt
    have h2 : k.val < 1 := k.isLt
    show k.val = (i 2).val
    omega

/-- A broadcast along the unit axis reads the row. -/
theorem bcast_row (hb : T2.BroadcastsInDim T3 (![0, 1] : Fin 2 → Fin T3.rank)) (y : T2.Idx → EReal) (i : T3.Idx) :
    broadcastInDim T3 ![0, 1] hb y i = y (row i) :=
  broadcastInDim_apply _ hb y i (row i) (fun a => match a with
    | ⟨0, _⟩ => by show (i 0).val = if (128 : Nat) = 1 then 0 else (i 0).val; rw [if_neg (by decide)]
    | ⟨1, _⟩ => by show (i 1).val = if (512 : Nat) = 1 then 0 else (i 1).val; rw [if_neg (by decide)])

/-- The row maximum of the logits at `(b, t)`, from `-∞`, is `max (-∞) (max (L (b, t, 0)) (-∞))`. -/
theorem rowmax_apply (hr : T3.ReducesTo [2] T2) (h0 : 0 < T0.numel)
    (hb0 : T0.BroadcastsInDim T2 (![] : Fin 0 → Fin T2.rank)) (L : FVec Ideal T3 .f32) (i : T3.Idx) :
    maximumf (broadcastInDim T2 ![] hb0 (constant T0 .f32 0xFF800000#32))
        (Host.reduce FloatOps.maximumf L (constant T0 .f32 0xFF800000#32) hr h0) (row i)
      = max ⊥ (max (L i) ⊥) := by
  have hred : T3.Reduces [2] T2 := by decide
  show max (broadcastInDim T2 ![] hb0 (constant (F := Ideal) T0 .f32 0xFF800000#32) (row i))
      (Host.reduce FloatOps.maximumf L (constant T0 .f32 0xFF800000#32) hr h0 (row i)) = _
  rw [broadcastInDim_apply _ hb0 _ (row i) ValueIdx.ix0 (fun a => a.elim0),
    Host.reduce_eq_fold_single FloatOps.maximumf L _ hr hred h0 (row i),
    fold_univ_one (n := T3.size 2) rfl, Function.comp_apply, lift_row]
  show max (Ideal.ofBits .f32 0xFF800000#32) (max (L i) (Ideal.ofBits .f32 0xFF800000#32)) = _
  rw [ofBits_neg_inf]

/-- The exponential at an index: `exp (l - max (-∞) (max l (-∞)))` of the logit `l` there. -/
theorem expo_apply (hr : T3.ReducesTo [2] T2) (h0 : 0 < T0.numel)
    (hb0 : T0.BroadcastsInDim T2 (![] : Fin 0 → Fin T2.rank))
    (hb : T2.BroadcastsInDim T3 (![0, 1] : Fin 2 → Fin T3.rank))
    (L : FVec Ideal T3 .f32) (i : T3.Idx) :
    expo hr h0 hb0 hb L i = Ideal.exp (L i - max ⊥ (max (L i) ⊥)) := by
  unfold expo
  simp only [Host.exp, subf, Ideal.hostUnary_exp_def, Ideal.subf_def]
  rw [bcast_row, rowmax_apply]

/-- At every index the softmax is that of the single logit there. -/
theorem tail_apply (hr : T3.ReducesTo [2] T2) (h0 : 0 < T0.numel)
    (hb0 : T0.BroadcastsInDim T2 (![] : Fin 0 → Fin T2.rank))
    (hb : T2.BroadcastsInDim T3 (![0, 1] : Fin 2 → Fin T3.rank))
    (L : FVec Ideal T3 .f32) (i : T3.Idx) :
    tail hr h0 hb0 hb L i
      = Ideal.div (Ideal.exp (L i - max ⊥ (max (L i) ⊥))) (0 + Ideal.exp (L i - max ⊥ (max (L i) ⊥))) := by
  have hred : T3.Reduces [2] T2 := by decide
  unfold tail
  simp only [Host.divf, Ideal.hostDivf_def]
  rw [bcast_row]
  simp only [Host.reduceAdd, Ideal.hostReduceAdd_def]
  rw [Ideal.hostReduceAdd_single hr hred, sum_univ_one (n := T3.size 2) rfl, lift_row, expo_apply]
  show Ideal.div _ (Ideal.ofBits .f32 0x00000000#32 + _) = _
  rw [Ideal.ofBits_zero_f32]

/-- Finite logits: the softmax along the unit axis is the constant 1. -/
theorem tail_one (hr : T3.ReducesTo [2] T2) (h0 : 0 < T0.numel)
    (hb0 : T0.BroadcastsInDim T2 (![] : Fin 0 → Fin T2.rank))
    (hb : T2.BroadcastsInDim T3 (![0, 1] : Fin 2 → Fin T3.rank))
    (L : FVec Ideal T3 .f32) (hL : ∀ i, IsFin (L i)) :
    tail hr h0 hb0 hb L = fun _ => 1 :=
  funext fun i => (tail_apply hr h0 hb0 hb L i).trans (softmax_single (hL i))

end Cert.Fin1

end
-- ==== Proof.KernelArray.lean ====
/-
  The kernel's result is the constant array 1.

  The region's output array (the logits, [128, 512]) is written back in eight blocks of sixteen rows, one per
  grid point, and every block holds real numbers as soon as the w2 row and b2 are real (KernelPieces); the eight
  blocks cover the array (row r lies in block r / 16), so every logit is a real number.  The host operations after
  the region add a trailing unit axis and take the softmax along it, which at real logits is the constant 1
  (SoftmaxTail).  The w2 row the region reads is the reshape [50, 1] → [1, 50] of the argument W2, entry for
  entry, and b2 is the argument itself.
-/
import proofs.«108830_j22617297781349_2_alg».proof.Proof.KernelPieces
import proofs.«108830_j22617297781349_2_alg».proof.Proof.SoftmaxTail
import Idealize.ShloMosaic.Lib.StableHlo.Run
import Idealize.ShloMosaic.Lib.Pipeline.Value

set_option maxRecDepth 16384

noncomputable section

namespace Cert.KernelIdeal.Logits

open Idealize.ShloMosaic Idealize.ShloMosaic.TcCoe Idealize.SL.Sem Idealize.ShloMosaic.StableHlo
open Cert.KernelIdeal Cert.KernelIdeal.Gen Cert.Fin1

variable (m : (ℓ : Loc nD τ sig) → Buf (Elt Ideal) ℓ)

/-- The w2 row as the region finds it: the reshape of the argument W2, so real wherever W2 is. -/
theorem w2row_fin (c : Dev nD) (h5 : ∀ k : S50x1.Idx, IsFin (m ((c : Thread nD τ).loc main_arg5) k)) (k : S1x50.Idx) :
    IsFin (V m c main_v4 k) := by
  have e : (V m c main_v4 : S1x50.Idx → EReal)
      = shapeCast S1x50 (m ((c : Thread nD τ).loc main_arg5)) Facts₀.shapeCasts_S50x1_S1x50 := by
    show StableHlo.after hostOps0 (fun b => m (c, b)) (Proc.devRef .tc main_v4) = _
    after_results
    rfl
  rw [e]
  exact isFin_shapeCast _ _ h5 k

/-- b2 as the region finds it: the argument, untouched by the host operations before the region. -/
theorem b2_fin (c : Dev nD) (h6 : ∀ k : S1.Idx, IsFin (m ((c : Thread nD τ).loc main_arg6) k)) (k : S1.Idx) :
    IsFin (V m c main_arg6 k) := by
  rw [V_main_arg6]
  exact h6 k

/-- The block of the w2 row window at any point holds real numbers. -/
theorem iblk8_fin (c : Dev nD) (t : Fin cfg0.N) (h : ∀ k : S1x50.Idx, IsFin (V m c main_v4 k)) (j : S1x50.Idx) :
    IsFin (iblk m c 8 t j) := by
  unfold iblk
  rw [View.read_apply]
  exact h _

/-- The block of the b2 window at any point holds real numbers. -/
theorem iblk9_fin (c : Dev nD) (t : Fin cfg0.N) (h : ∀ k : S1.Idx, IsFin (V m c main_arg6 k)) (j : S1.Idx) :
    IsFin (iblk m c 9 t j) := by
  unfold iblk
  rw [View.read_apply]
  exact h _

/-- What the body leaves in the output block at any point holds real numbers. -/
theorem outs_fin (c : Dev nD) (t : Fin cfg0.N) (h8 : ∀ k : S1x50.Idx, IsFin (V m c main_v4 k))
    (h9 : ∀ k : S1.Idx, IsFin (V m c main_arg6 k)) (y : S16x512.Idx) : IsFin (outsAt0 m c t y) := by
  unfold outsAt0
  exact out_fin c _ _ _ _ _ _ _ _ _ _ _ _ _ _ _ _ _ _ _ _ _ _ _ _ _ _ _ _ _ _ _ _ _
    (iblk8_fin m c t h8) (iblk9_fin m c t h9) y

/-- An index of the logits array lies in point `t`'s block iff its row lies in rows [16 t, 16 t + 16). -/
theorem mem_blk (t : Fin cfg0.N) (i : S128x512.Idx) :
    i ∈ ((cfg0.win 10).blk t).view.set ↔ ∀ a : Fin 2, win0_10.index t a * S16x512.size a ≤ (i a).val ∧ (i a).val < win0_10.index t a * S16x512.size a + S16x512.size a := by
  show i ∈ ((View.whole main_v5).slice (win0_10.rect t)).set ↔ _
  rw [View.set_slice_whole, Rect.mem_set_unit]
  exact Iff.rfl

/-- The output window's block index at point `t` is `(t, 0)`. -/
theorem idx_facts : ∀ t : Fin cfg0.N, win0_10.index t (0 : Fin 2) = t.val ∧ win0_10.index t (1 : Fin 2) = 0 :=
  (by decide +kernel : ∀ t : Fin grid0.N, _)

/-- Every index of the logits array is in some point's block: row `r` in block `r / 16`. -/
theorem covered (i : S128x512.Idx) :
    ∃ t : Fin cfg0.N, (cfg0.win 10).flush t = true ∧ i ∈ ((cfg0.win 10).blk t).view.set := by
  have hi0 : (i 0).val < 128 := (i 0).isLt
  have hi1 : (i 1).val < 512 := (i 1).isLt
  have hN : grid0.N = 8 := N_0
  refine ⟨⟨(i 0).val / 16, by show (i 0).val / 16 < grid0.N; omega⟩, flush0_10 _, ?_⟩
  rw [mem_blk]
  obtain ⟨e0, e1⟩ := idx_facts ⟨(i 0).val / 16, by show (i 0).val / 16 < grid0.N; omega⟩
  intro a
  match a with
  | ⟨0, _⟩ =>
    show win0_10.index _ (0 : Fin 2) * 16 ≤ (i 0).val ∧ (i 0).val < win0_10.index _ (0 : Fin 2) * 16 + 16
    rw [e0]
    show (i 0).val / 16 * 16 ≤ (i 0).val ∧ (i 0).val < (i 0).val / 16 * 16 + 16
    omega
  | ⟨1, _⟩ =>
    show win0_10.index _ (1 : Fin 2) * 512 ≤ (i 1).val ∧ (i 1).val < win0_10.index _ (1 : Fin 2) * 512 + 512
    rw [e1]
    omega

/-- Every logit the region leaves is a real number, when W2 and b2 are. -/
theorem logits_fin (c : Dev nD) (h5 : ∀ k : S50x1.Idx, IsFin (m ((c : Thread nD τ).loc main_arg5) k))
    (h6 : ∀ k : S1.Idx, IsFin (m ((c : Thread nD τ).loc main_arg6) k)) (i : S128x512.Idx) :
    IsFin ((dats m 0 c).arrAt 10 cfg0.N i) := by
  refine (dats m 0 c).arrAt_forall_of_cover 10 (fun _ (v : EReal) => IsFin v) (fun t _ y => ?_) covered i
  show IsFin ((cfg0.win 10).cut (grid0.coords t) ((dats m 0 c).after 10 t) y)
  rw [after0_10]
  exact outs_fin m c t (w2row_fin m c h5) (b2_fin m c h6) _

/-- The kernel's result: the softmax along the unit axis of the logits with a trailing unit axis added. -/
theorem result_eq (c : Dev nD) :
    (Pipeline.afterTail₀ cfgs (dats m) 0 (V0 m) [hostOps1] c main_v15 : S128x512x1.Idx → EReal)
      = tail Facts₀.reducesTo_S128x512x1_S128x512_d2 Facts₀.h_S_ Facts₀.bcast_S_S128x512 Facts₀.bcast_S128x512_S128x512x1_0_1
          (broadcastInDim S128x512x1 ![0, 1] Facts₀.bcast_S128x512_S128x512x1_0_1 ((dats m 0 c).arrAt 10 cfg0.N)) := by
  unfold Pipeline.afterTail₀
  show StableHlo.after hostOps1 _ (Proc.devRef .tc main_v15) = _
  after_results
  have e := Pipeline.withArrays_arr spec0 launch0.win.arr_inj c (V0 m c) (fun w => (dats m 0 c).arrAt w cfg0.N) 10
  rw [show Pipeline.withArrays (cfgs 0).spec c (V0 m c) (fun w => (dats m 0 c).arrAt w (cfgs 0).N) (Proc.devRef .tc main_v5)
      = (dats m 0 c).arrAt 10 cfg0.N from e]
  rfl

/-- With W2 and b2 real, the kernel's result is 1 everywhere. -/
theorem result_one (c : Dev nD) (h5 : ∀ k : S50x1.Idx, IsFin (m ((c : Thread nD τ).loc main_arg5) k))
    (h6 : ∀ k : S1.Idx, IsFin (m ((c : Thread nD τ).loc main_arg6) k)) :
    (Pipeline.afterTail₀ cfgs (dats m) 0 (V0 m) [hostOps1] c main_v15 : S128x512x1.Idx → EReal) = fun _ => (1 : EReal) := by
  rw [result_eq]
  refine tail_one _ _ _ _ _ fun i => ?_
  rw [bcast_row]
  exact logits_fin m c h5 h6 _

end Cert.KernelIdeal.Logits

end
-- ==== Proof.KernelRun.lean ====
/-
  The idealized kernel's run, read: every weakly fair execution ends with the result array holding 1 everywhere
  and the seven arguments unchanged, provided W2 and b2 hold real numbers.

  The result is the last buffer the host operations after the region write (KernelArray: the softmax of real
  logits along a unit axis).  Of the arguments, five are staged by windows of the region and end as the region found
  them, which is as launched (no host operation before the region writes an argument); W1 and W2 are read only by
  host operations (the four slices, the reshape) and no operation writes them.
-/
import proofs.«108830_j22617297781349_2_alg».proof.Proof.KernelArray

set_option maxRecDepth 16384

noncomputable section

namespace Cert.KernelIdeal.Logits

open Idealize.ShloMosaic Idealize.ShloMosaic.TcCoe Idealize.SL.Sem
open Cert.KernelIdeal Cert.KernelIdeal.Gen Cert.Fin1

theorem run (m : (ℓ : Loc nD τ sig) → Buf (Elt Ideal) ℓ) (ρ : Dev nD → PrngReg)
    (h5 : ∀ (c : Dev nD) (k : S50x1.Idx), IsFin (m ((c : Thread nD τ).loc main_arg5) k))
    (h6 : ∀ (c : Dev nD) (k : S1.Idx), IsFin (m ((c : Thread nD τ).loc main_arg6) k)) :
    θ_run defs (onTc (τ := τ) (main (F := Ideal))) ⟨m, fun _ => 0, ρ⟩ (fun r => ∀ c : Dev nD,
      r.2.mem ((c.tc : Thread nD τ).loc main_v15) = (fun _ => (1 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v15 (Pipeline.mem_restRefs_of main_v15 (by decide) (by decide))).trans (result_one m c (h5 c) (h6 c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 7).trans (((dats m 0 c).arrAt_in 7 rfl _).trans ((A_eq m c 7).trans (V_main_arg4 m c))),
      ((h c).2 main_arg5 (Pipeline.mem_restRefs_of main_arg5 (by decide) (by decide))).trans (W_main_arg5 m (dats m) c),
      ((h c).1 9).trans (((dats m 0 c).arrAt_in 9 rfl _).trans ((A_eq m c 9).trans (V_main_arg6 m c)))⟩)
    (run_main m ρ)

end Cert.KernelIdeal.Logits

end
-- ==== Proof.RefOne.lean ====
/-
  The reference's result is the constant array 1.

  The reference's logits are `(Σ_h tanh(…)[b, t, h] · W2[h, 0]) + b2[0]` — a contraction of hyperbolic tangents,
  which are real numbers whatever their arguments, against W2, plus b2 — hence real numbers as soon as W2 and b2
  are.  Its last nine operations are the softmax along the trailing unit axis of those logits, which at real logits
  is the constant 1 (SoftmaxTail).
-/
import proofs.«108830_j22617297781349_2_alg».proof.Proof.Gen.ReferenceIdeal.Read
import proofs.«108830_j22617297781349_2_alg».proof.Proof.SoftmaxTail

noncomputable section

namespace Cert.ReferenceIdeal.RefValue

open Idealize.ShloMosaic Cert.ReferenceIdeal Cert.ReferenceIdeal.Read Cert.Fin1

/-- Every logit of the reference is a real number, when W2 (`x5`) and b2 (`x6`) are. -/
theorem logits_fin (x0 : (⟨S128x512x256, .f32⟩ : BufTy).Contents (Elt Ideal)) (x1 x2 : (⟨S128x256, .f32⟩ : BufTy).Contents (Elt Ideal)) (x3 : (⟨S1024x50, .f32⟩ : BufTy).Contents (Elt Ideal)) (x4 : (⟨S50, .f32⟩ : BufTy).Contents (Elt Ideal)) (x5 : (⟨S50x1, .f32⟩ : BufTy).Contents (Elt Ideal)) (x6 : (⟨S1, .f32⟩ : BufTy).Contents (Elt Ideal))
    (h5 : ∀ k, IsFin (x5 k)) (h6 : ∀ k, IsFin (x6 k)) (i : S128x512x1.Idx) :
    IsFin (val_main_v21 (F := Ideal) x0 x1 x2 x3 x4 x5 x6 i) := by
  rw [val_main_v21_apply]
  refine IsFin.add ?_ ?_
  · rw [val_main_v18_apply]
    refine IsFin.sum _ _ fun k _ => IsFin.mul ?_ (h5 _)
    rw [val_main_v17_apply]
    exact isFin_tanh _
  · rw [val_main_v20_apply, val_main_v19_apply]
    exact h6 _

/-- The reference's result is the softmax along the unit axis of its logits. -/
theorem result_eq (x0 : (⟨S128x512x256, .f32⟩ : BufTy).Contents (Elt Ideal)) (x1 x2 : (⟨S128x256, .f32⟩ : BufTy).Contents (Elt Ideal)) (x3 : (⟨S1024x50, .f32⟩ : BufTy).Contents (Elt Ideal)) (x4 : (⟨S50, .f32⟩ : BufTy).Contents (Elt Ideal)) (x5 : (⟨S50x1, .f32⟩ : BufTy).Contents (Elt Ideal)) (x6 : (⟨S1, .f32⟩ : BufTy).Contents (Elt Ideal)) :
    val_main_v30 (F := Ideal) x0 x1 x2 x3 x4 x5 x6
      = tail Facts₀.reducesTo_S128x512x1_S128x512_d2 Facts₀.h_S_ Facts₀.bcast_S_S128x512 Facts₀.bcast_S128x512_S128x512x1_0_1
          (val_main_v21 (F := Ideal) x0 x1 x2 x3 x4 x5 x6) := by
  unfold val_main_v30 val_main_v29 val_main_v28 val_main_v27 val_main_v26 val_main_v25 val_main_v24 val_main_v23
    val_main_v22 val_main_cst val_main_cst_0 val_main_cst_1 tail expo
  rfl

/-- With W2 and b2 real, the reference's result is 1 everywhere. -/
theorem result_one (x0 : (⟨S128x512x256, .f32⟩ : BufTy).Contents (Elt Ideal)) (x1 x2 : (⟨S128x256, .f32⟩ : BufTy).Contents (Elt Ideal)) (x3 : (⟨S1024x50, .f32⟩ : BufTy).Contents (Elt Ideal)) (x4 : (⟨S50, .f32⟩ : BufTy).Contents (Elt Ideal)) (x5 : (⟨S50x1, .f32⟩ : BufTy).Contents (Elt Ideal)) (x6 : (⟨S1, .f32⟩ : BufTy).Contents (Elt Ideal))
    (h5 : ∀ k, IsFin (x5 k)) (h6 : ∀ k, IsFin (x6 k)) :
    val_main_v30 (F := Ideal) x0 x1 x2 x3 x4 x5 x6 = fun _ => 1 := by
  rw [result_eq]
  exact tail_one _ _ _ _ _ (logits_fin x0 x1 x2 x3 x4 x5 x6 h5 h6)

end Cert.ReferenceIdeal.RefValue

end
-- ==== Proof.PreFinite.lean ====
/-
  What the precondition says of W2 and b2.

  The precondition is the conjunction, over the seven argument arrays, of "every entry x has |x| < +∞" (each an
  all-reduction by `and` of the comparisons of the entries' absolute values with the pattern of +∞).  On the
  extended reals |x| = max x (-x) lies below +∞ exactly when x is a real number.  Read back for the last two arrays:
  every entry of W2 and every entry of b2 is a real number.
-/
import proofs.«108830_j22617297781349_2_alg».proof.Pre_finite_inputs
import proofs.«108830_j22617297781349_2_alg».proof.Proof.Gen.Pre_finite_inputs
import proofs.«108830_j22617297781349_2_alg».proof.Proof.Finite
import Idealize.ShloMosaic.Lib.ReduceAll
import Idealize.ShloMosaic.Lib.ValueIdx

noncomputable section

namespace Cert.Pre_finite_inputs.Decode

open Idealize.ShloMosaic Cert.Pre_finite_inputs Cert.Fin1

/-- The scalar shape has one index. -/
instance : Subsingleton S_.Idx := ⟨fun a b => funext fun d => d.elim0⟩

/-- The bit pattern of `+∞` denotes the top of the extended reals. -/
theorem ofBits_inf : Ideal.ofBits .f32 0x7F800000#32 = ⊤ := by
  simp [Ideal.ofBits, Ideal.ieee]

/-- One entry's test: `|x| < +∞` answered "true" means `x` is a real number. -/
theorem isFin_of_cmp {x : EReal}
    (h : Ideal.cmp .olt (max x (-x)) (Ideal.ofBits .f32 0x7F800000#32) = 1#1) : IsFin x := by
  refine isFin_of_abs_lt_top ?_
  rw [ofBits_inf] at h
  unfold Ideal.cmp at h
  by_contra hn
  simp [hn] at h

/-- The precondition, read back for W2 (`a5`) and b2 (`a6`): all their entries are real numbers. -/
theorem fin_of_pre (a0 : FVec Ideal S128x512x256 .f32) (a1 a2 : FVec Ideal S128x256 .f32) (a3 : FVec Ideal S1024x50 .f32)
    (a4 : FVec Ideal S50 .f32) (a5 : FVec Ideal S50x1 .f32) (a6 : FVec Ideal S1 .f32)
    (h : fn (F := Ideal) a0 a1 a2 a3 a4 a5 a6 = fun _ => 1#1) :
    (∀ k, IsFin (a5 k)) ∧ (∀ k, IsFin (a6 k)) := by
  have h0 := congrFun h ValueIdx.ix0
  simp only [fn, fn_part1, andi, IntOp.andi_eq_one] at h0
  obtain ⟨⟨-, h5⟩, h6⟩ := h0
  exact ⟨fun k => isFin_of_cmp (Host.reduce_andi_all _ _ _ _ _ h5 k),
    fun k => isFin_of_cmp (Host.reduce_andi_all _ _ _ _ _ h6 k)⟩

end Cert.Pre_finite_inputs.Decode

end
-- ==== Proof.lean ====
/- Both programs compute logits `(Σ_h tanh(pre-activation)[h] · W2[h]) + b2` of shape [128, 512] (the kernel in eight
   blocks of sixteen rows, four column chunks per block; the reference in one contraction) and end with the SAME nine
   host operations: the softmax along a trailing axis of extent one.  The hyperbolic tangent of any extended real is a
   real number in [-1, 1], so under the precondition (every input finite — used here for W2 and b2 only) every logit
   of either program is a real number, whatever the pre-activations are; and the softmax of ONE real logit l is
   e^(l - l) / e^(l - l) = 1.  So both results are the constant array 1, hence equal.  (Finiteness is what makes
   l - l = 0: on the extended reals ∞ - ∞ is not 0.)
   Modules: Finite (real numbers among the extended reals; the one-logit softmax), SoftmaxTail (the nine operations at
   real logits give 1), LibCanonForall (a property of every stored value holds of the buffer), KernelPieces (every
   value the body stores is real), KernelArray (the region's output array is real; the kernel's result is 1),
   KernelRun (the kernel's run, read), RefOne (the reference's result is 1), PreFinite (the precondition read back for
   W2 and b2).  The three frames are the generated ones (the reference's is its generated run with the result dropped);
   the idealization ledger is empty. -/
import proofs.«108830_j22617297781349_2_alg».proof.Defs
import proofs.«108830_j22617297781349_2_alg».proof.Proof.Gen.Kernel
import proofs.«108830_j22617297781349_2_alg».proof.Proof.Gen.Kernel.Skeleton
import proofs.«108830_j22617297781349_2_alg».proof.Proof.Gen.Kernel.Loops
import proofs.«108830_j22617297781349_2_alg».proof.Proof.Gen.Kernel.Launch
import proofs.«108830_j22617297781349_2_alg».proof.Proof.Gen.Kernel.Points
import proofs.«108830_j22617297781349_2_alg».proof.Proof.Gen.Kernel.Frame
import proofs.«108830_j22617297781349_2_alg».proof.Proof.Gen.KernelIdeal
import proofs.«108830_j22617297781349_2_alg».proof.Proof.Gen.KernelIdeal.Skeleton
import proofs.«108830_j22617297781349_2_alg».proof.Proof.Gen.KernelIdeal.Loops
import proofs.«108830_j22617297781349_2_alg».proof.Proof.Gen.KernelIdeal.Launch
import proofs.«108830_j22617297781349_2_alg».proof.Proof.Gen.KernelIdeal.Points
import proofs.«108830_j22617297781349_2_alg».proof.Proof.Gen.KernelIdeal.Frame
import proofs.«108830_j22617297781349_2_alg».proof.Proof.Gen.ReferenceIdeal
import proofs.«108830_j22617297781349_2_alg».proof.Proof.Gen.Pre_finite_inputs
import proofs.«108830_j22617297781349_2_alg».proof.Proof.Gen.ReferenceIdeal.Run
import proofs.«108830_j22617297781349_2_alg».proof.Proof.Gen.ReferenceIdeal.Read
import proofs.«108830_j22617297781349_2_alg».proof.Proof.KernelRun
import proofs.«108830_j22617297781349_2_alg».proof.Proof.RefOne
import proofs.«108830_j22617297781349_2_alg».proof.Proof.PreFinite
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the constant array 1: the kernel's by its run read back, the reference's by its generated run
    and the stage lemma, its W2 and b2 being the kernel's (the memories agree on the arguments). -/
theorem algebraic : Cert.algebraic_KernelIdeal_ReferenceIdeal := by
  intro m ρ m' ρ' hpre hagree
  have hfin : ∀ c : Dev Cert.KernelIdeal.nD,
      (∀ k, Cert.Fin1.IsFin (m ((c.tc : Thread Cert.KernelIdeal.nD Cert.KernelIdeal.τ).loc Cert.KernelIdeal.main_arg5) k))
      ∧ (∀ k, Cert.Fin1.IsFin (m ((c.tc : Thread Cert.KernelIdeal.nD Cert.KernelIdeal.τ).loc Cert.KernelIdeal.main_arg6) k)) :=
    fun c => Cert.Pre_finite_inputs.Decode.fin_of_pre _ _ _ _ _ _ _ (hpre c)
  refine ⟨fun _ => (fun _ => (1 : EReal)),
    Cert.KernelIdeal.Logits.run m ρ (fun c => (hfin c).1) (fun c => (hfin c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq]
  refine Cert.ReferenceIdeal.RefValue.result_one _ _ _ _ _ _ _ ?_ ?_
  · rw [(hagree c).2.2.2.2.2.1]; exact (hfin c).1
  · rw [(hagree c).2.2.2.2.2.2]; exact (hfin c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
